-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024 : Shape := ⟨2, ![32, 1024]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S32x1024x256 .f32) (main_arg1 : IVec S32x1024 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S32x1024x256 : Shape := ⟨3, ![32, 1024, 256]⟩
abbrev S32x1024 : Shape := ⟨2, ![32, 1024]⟩
abbrev S256x256 : Shape := ⟨2, ![256, 256]⟩
abbrev S256 : Shape := ⟨1, ![256]⟩
abbrev S32x1024x1 : Shape := ⟨3, ![32, 1024, 1]⟩
abbrev S32x1x1024 : Shape := ⟨3, ![32, 1, 1024]⟩
abbrev S1x1024x256 : Shape := ⟨3, ![1, 1024, 256]⟩
abbrev S1x1024x1 : Shape := ⟨3, ![1, 1024, 1]⟩
abbrev S1x1x1024 : Shape := ⟨3, ![1, 1, 1024]⟩
abbrev S1024x256 : Shape := ⟨2, ![1024, 256]⟩
abbrev S1x256 : Shape := ⟨2, ![1, 256]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S32x1024x256, .f32⟩
  | .hbm, ⟨1, _⟩ => ⟨S32x1024, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S32x1024, .f32⟩
  | .hbm, ⟨11, _⟩ => ⟨S32x1024x1, .f32⟩
  | .hbm, ⟨12, _⟩ => ⟨S32x1x1024, .f32⟩
  | .hbm, ⟨13, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1, .f32⟩
  | .local _ .vmem, ⟨3, _⟩ => ⟨S1x1024x1, .f32⟩
  | .local _ .vmem, ⟨4, _⟩ => ⟨S1x1x1024, .f32⟩
  | .local _ .vmem, ⟨5, _⟩ => ⟨S1x1x1024, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S1x1024x256, .f32⟩
  | .local _ .vmem, ⟨15, _⟩ => ⟨S1x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x256_S1024 : S1024x256.Reduces [1] S1024
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x1024x1.size a
  hwx0_1 : ∀ i : grid0.Coords, EltTy.bits .f32 = 32 ∨ (Rect.block (s := S32x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x256.size a ≤ S32x1024x256.size a
  hwx0_11 : ∀ i : grid0.Coords, EltTy.bits .f32 = 32 ∨ (Rect.block (s := S32x1024x256) S1x1024x256.size (cc0_transform_11 i) (hinb0_11 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024 : Shape := ⟨2, ![32, 1024]⟩
abbrev S256x256 : Shape := ⟨2, ![256, 256]⟩
abbrev S256 : Shape := ⟨1, ![256]⟩
abbrev S1x1x256 : Shape := ⟨3, ![1, 1, 256]⟩
abbrev S32x1024x1024 : Shape := ⟨3, ![32, 1024, 1024]⟩
abbrev S_ : Shape := ⟨0, ![]⟩
abbrev S32x1024x1 : Shape := ⟨3, ![32, 1024, 1]⟩
abbrev S32x1x1024 : Shape := ⟨3, ![32, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S32x1024x256, .f32⟩
  | .hbm, ⟨11, _⟩ => ⟨S1x1x256, .f32⟩
  | .hbm, ⟨12, _⟩ => ⟨S32x1024x256, .f32⟩
  | .hbm, ⟨13, _⟩ => ⟨S32x1024x256, .f32⟩
  | .hbm, ⟨14, _⟩ => ⟨S32x1024x256, .f32⟩
  | .hbm, ⟨15, _⟩ => ⟨S1x1x256, .f32⟩
  | .hbm, ⟨16, _⟩ => ⟨S32x1024x256, .f32⟩
  | .hbm, ⟨17, _⟩ => ⟨S32x1024x256, .f32⟩
  | .hbm, ⟨18, _⟩ => ⟨S32x1024x256, .f32⟩
  | .hbm, ⟨19, _⟩ => ⟨S1x1x256, .f32⟩
  | .hbm, ⟨20, _⟩ => ⟨S32x1024x256, .f32⟩
  | .hbm, ⟨21, _⟩ => ⟨S32x1024x256, .f32⟩
  | .hbm, ⟨22, _⟩ => ⟨S32x1024x1024, .f32⟩
  | .hbm, ⟨23, _⟩ => ⟨S_, .f32⟩
  | .hbm, ⟨24, _⟩ => ⟨S32x1024x1024, .f32⟩
  | .hbm, ⟨25, _⟩ => ⟨S32x1024x1024, .f32⟩
  | .hbm, ⟨26, _⟩ => ⟨S32x1024, .f32⟩
  | .hbm, ⟨27, _⟩ => ⟨S32x1024x1, .f32⟩
  | .hbm, ⟨28, _⟩ => ⟨S32x1x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S32x1024x1024, .f32⟩
  | .hbm, ⟨34, _⟩ => ⟨S32x1024x1024, .f32⟩
  | .hbm, ⟨35, _⟩ => ⟨S_, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S32x1024, .f32⟩
  | .hbm, ⟨42, _⟩ => ⟨S_, .f32⟩
  | .hbm, ⟨43, _⟩ => ⟨S32x1024, .f32⟩
  | .hbm, ⟨44, _⟩ => ⟨S32x1024, .f32⟩
  | .hbm, ⟨45, _⟩ => ⟨S32x1024x1, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024, .f32⟩
  | .hbm, ⟨51, _⟩ => ⟨S32x1024x1, .f32⟩
  | .hbm, ⟨52, _⟩ => ⟨S32x1024x1024, .f32⟩
  | .hbm, ⟨53, _⟩ => ⟨S32x1024x1024, .f32⟩
  | .hbm, ⟨54, _⟩ => ⟨S32x1024x256, .f32⟩
  | .hbm, ⟨55, _⟩ => ⟨S_, .f32⟩
  | .hbm, ⟨56, _⟩ => ⟨S32x1024, .f32⟩
  | .hbm, ⟨57, _⟩ => ⟨S32x1024x1, .f32⟩
  | .hbm, ⟨58, _⟩ => ⟨S_, .f32⟩
  | .hbm, ⟨59, _⟩ => ⟨S32x1024x1, .f32⟩
  | .hbm, ⟨60, _⟩ => ⟨S32x1024x1, .f32⟩
  | .hbm, ⟨61, _⟩ => ⟨S32x1024x256, .f32⟩
  | .hbm, ⟨62, _⟩ => ⟨S32x1024x256, .f32⟩
  | .hbm, ⟨63, _⟩ => ⟨S32x1024x256, .f32⟩
  | .hbm, ⟨64, _⟩ => ⟨S_, .f32⟩
  | .hbm, ⟨65, _⟩ => ⟨S32x1024, .f32⟩
  | .hbm, ⟨66, _⟩ => ⟨S32x1024x1, .f32⟩
  | .hbm, ⟨67, _⟩ => ⟨S_, .f32⟩
  | .hbm, ⟨68, _⟩ => ⟨S32x1024x1, .f32⟩
  | .hbm, ⟨69, _⟩ => ⟨S32x1024x1, .f32⟩
  | .hbm, ⟨70, _⟩ => ⟨S32x1024x256, .f32⟩
  | .hbm, ⟨71, _⟩ => ⟨S32x1024x256, .f32⟩
  | .hbm, ⟨72, _⟩ => ⟨S_, .f32⟩
  | .hbm, ⟨73, _⟩ => ⟨S32x1024x1, .f32⟩
  | .hbm, ⟨74, _⟩ => ⟨S32x1024x1, .f32⟩
  | .hbm, ⟨75, _⟩ => ⟨S32x1024x1, .f32⟩
  | .hbm, ⟨76, _⟩ => ⟨S32x1024x256, .f32⟩
  | .hbm, ⟨77, _⟩ => ⟨S32x1024x256, .f32⟩
  | .hbm, ⟨78, _⟩ => ⟨S1x1x256, .f32⟩
  | .hbm, ⟨79, _⟩ => ⟨S32x1024x256, .f32⟩
  | .hbm, ⟨80, _⟩ => ⟨S32x1024x256, .f32⟩
  | .hbm, ⟨81, _⟩ => ⟨S1x1x256, .f32⟩
  | .hbm, ⟨82, _⟩ => ⟨S32x1024x256, .f32⟩
  | .hbm, ⟨83, _⟩ => ⟨S32x1024x256, .f32⟩
  | .hbm, ⟨84, _⟩ => ⟨S_, .f32⟩
  | .hbm, ⟨85, _⟩ => ⟨S32x1024x256, .f32⟩
  | .hbm, ⟨86, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_cst : Ref sig .tc := ⟨.hbm, 84, rfl⟩
abbrev main_call0_v0 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S_S32x1024x1024 : S_.BroadcastsInDim S32x1024x1024 (![] : Fin 0 → Fin S32x1024x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  reducesTo_S32x1024x256_S32x1024_d2 : S32x1024x256.ReducesTo [2] S32x1024
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  bcast_S_S32x1024x256 : S_.BroadcastsInDim S32x1024x256 (![] : Fin 0 → Fin S32x1024x256.rank)
  dot_S32x1024x256_S256x256_S32x1024x256_2_0_01_1_n_n_wf : DotDims.WF S32x1024x256 S256x256 S32x1024x256 [2] [0] [0, 1] [1] [] []
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf
def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.VecRead.lean ====
/-
  The vector operations of the kernel's body read at an index, over the extended reals.

  A matrix product into a zero accumulator is the plain sum over the contracted axis; a sum or a maximum along the
  lanes is the sum or the fold of `max` over the row; a row or a column spread over a matrix reads the row's or the
  column's entry; a cast that only adds or drops a unit axis reads the same entry. Each statement names the entry by
  its coordinates, so that the sums that come out are indexed by `Fin 256` and `Fin 1024`.
-/
import proofs.«137331_j41205916237953_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Vec

open Cert.KernelIdeal Idealize.ShloMosaic Idealize.ShloMosaic.ValueIdx

/-! ## The three matrix products -/

theorem rows_lhs_non (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem rows_lhs_con (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rows_rhs_non (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem rows_rhs_con (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

/-- Rows times a square matrix: `(l · r) (n, h) = ∑ d, l (n, d) · r (d, h)`. -/
theorem matmul_rows (l : FVec Ideal S1024x256 .bf16) (r : FVec Ideal S256x256 .bf16) (n : Fin 1024) (h : Fin 256) :
    matmul dot_S1024x256_S256x256_S1024x256_1_0_0_1_n_n none l r (constant S1024x256 .f32 0x00000000#32) (ix2 n h)
      = ∑ d : Fin 256, l (ix2 n d) * r (ix2 d h) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun d _ => ?_
  have hk := ValueIdx.contrEquiv1_symm_val dot_S1024x256_S256x256_S1024x256_1_0_0_1_n_n 256 rfl rfl d
  have el : dot_S1024x256_S256x256_S1024x256_1_0_0_1_n_n.lhsIdx (ix2 n h) ((ValueIdx.contrEquiv1 dot_S1024x256_S256x256_S1024x256_1_0_0_1_n_n 256 rfl rfl).symm d) = ix2 n d := funext fun a => Fin.ext (by
    match a with
    | ⟨0, _⟩ => exact rows_lhs_non _ _
    | ⟨1, _⟩ => exact (rows_lhs_con _ _).trans hk)
  have er : dot_S1024x256_S256x256_S1024x256_1_0_0_1_n_n.rhsIdx (ix2 n h) ((ValueIdx.contrEquiv1 dot_S1024x256_S256x256_S1024x256_1_0_0_1_n_n 256 rfl rfl).symm d) = ix2 d h := funext fun a => Fin.ext (by
    match a with
    | ⟨0, _⟩ => exact (rows_rhs_con _ _).trans hk
    | ⟨1, _⟩ => exact rows_rhs_non _ _)
  rw [el, er]

theorem gram_lhs_non (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem gram_lhs_con (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem gram_rhs_non (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem gram_rhs_con (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Rows against rows: `(l · rᵀ) (n, m) = ∑ h, l (n, h) · r (m, h)`. -/
theorem matmul_gram (l : FVec Ideal S1024x256 .bf16) (r : FVec Ideal S1024x256 .bf16) (n : Fin 1024) (m : Fin 1024) :
    matmul dot_S1024x256_S1024x256_S1024x1024_1_1_0_0_n_n none l r (constant S1024x1024 .f32 0x00000000#32) (ix2 n m)
      = ∑ h : Fin 256, l (ix2 n h) * r (ix2 m h) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun h _ => ?_
  have hk := ValueIdx.contrEquiv1_symm_val dot_S1024x256_S1024x256_S1024x1024_1_1_0_0_n_n 256 rfl rfl h
  have el : dot_S1024x256_S1024x256_S1024x1024_1_1_0_0_n_n.lhsIdx (ix2 n m) ((ValueIdx.contrEquiv1 dot_S1024x256_S1024x256_S1024x1024_1_1_0_0_n_n 256 rfl rfl).symm h) = ix2 n h := funext fun a => Fin.ext (by
    match a with
    | ⟨0, _⟩ => exact gram_lhs_non _ _
    | ⟨1, _⟩ => exact (gram_lhs_con _ _).trans hk)
  have er : dot_S1024x256_S1024x256_S1024x1024_1_1_0_0_n_n.rhsIdx (ix2 n m) ((ValueIdx.contrEquiv1 dot_S1024x256_S1024x256_S1024x1024_1_1_0_0_n_n 256 rfl rfl).symm h) = ix2 m h := funext fun a => Fin.ext (by
    match a with
    | ⟨0, _⟩ => exact gram_rhs_non _ _
    | ⟨1, _⟩ => exact (gram_rhs_con _ _).trans hk)
  rw [el, er]

theorem mixd_lhs_non (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mixd_lhs_con (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem mixd_rhs_non (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
theorem mixd_rhs_con (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

/-- A square weight matrix times rows: `(l · r) (n, h) = ∑ m, l (n, m) · r (m, h)`. -/
theorem matmul_mix (l : FVec Ideal S1024x1024 .bf16) (r : FVec Ideal S1024x256 .bf16) (n : Fin 1024) (h : Fin 256) :
    matmul dot_S1024x1024_S1024x256_S1024x256_1_0_0_1_n_n none l r (constant S1024x256 .f32 0x00000000#32) (ix2 n h)
      = ∑ m : Fin 1024, l (ix2 n m) * r (ix2 m h) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun m _ => ?_
  have hk := ValueIdx.contrEquiv1_symm_val dot_S1024x1024_S1024x256_S1024x256_1_0_0_1_n_n 1024 rfl rfl m
  have el : dot_S1024x1024_S1024x256_S1024x256_1_0_0_1_n_n.lhsIdx (ix2 n h) ((ValueIdx.contrEquiv1 dot_S1024x1024_S1024x256_S1024x256_1_0_0_1_n_n 1024 rfl rfl).symm m) = ix2 n m := funext fun a => Fin.ext (by
    match a with
    | ⟨0, _⟩ => exact mixd_lhs_non _ _
    | ⟨1, _⟩ => exact (mixd_lhs_con _ _).trans hk)
  have er : dot_S1024x1024_S1024x256_S1024x256_1_0_0_1_n_n.rhsIdx (ix2 n h) ((ValueIdx.contrEquiv1 dot_S1024x1024_S1024x256_S1024x256_1_0_0_1_n_n 1024 rfl rfl).symm m) = ix2 m h := funext fun a => Fin.ext (by
    match a with
    | ⟨0, _⟩ => exact (mixd_rhs_con _ _).trans hk
    | ⟨1, _⟩ => exact mixd_rhs_non _ _)
  rw [el, er]

/-! ## Sums and a maximum along the lanes -/

/-- The lane index put back beside a row index is the pair. -/
theorem lift_row {b : Nat} (h : (⟨2, ![1024, b]⟩ : Shape).Reduces [1] ⟨1, ![1024]⟩) (n : Fin 1024) (m : Fin b) :
    h.lift (ix1 n) m = ix2 n m :=
  funext fun a => Fin.ext (by match a with | ⟨0, _⟩ => rfl | ⟨1, _⟩ => rfl)

/-- A row's maximum: the fold of `max` from the accumulator's word over the row. -/
theorem rowmax_apply (src : FVec Ideal S1024x1024 .f32) (h : S1024x1024.Reduces [1] S1024) (hφ : FKind.Formats .f32)
    (hacc : (0xFF800000#32 : BitVec 32) = FKind.maximumf.neutral .f32 hφ) (n : Fin 1024) :
    multiReduction .maximumf [1] S1024 src 0xFF800000#32 h hφ hacc (ix1 n)
      = (Finset.univ : Finset (Fin 1024)).fold max (Ideal.ofBits .f32 0xFF800000#32) (fun m => src (ix2 n m)) := by
  refine (Ideal.multiReduction_maximumf_single src _ h hφ hacc (ix1 n)).trans ?_
  show (Finset.univ : Finset (Fin 1024)).fold max (Ideal.ofBits .f32 0xFF800000#32) (fun m => src (h.lift (ix1 n) m)) = _
  exact congrArg (fun f => Finset.fold max (Ideal.ofBits .f32 0xFF800000#32) f Finset.univ) (funext fun m => congrArg src (lift_row h n m))

/-- A row's sum, of 1024 entries. -/
theorem rowsum_apply (src : FVec Ideal S1024x1024 .f32) (h : S1024x1024.Reduces [1] S1024) (hφ : FKind.Formats .f32)
    (hacc : (0x00000000#32 : BitVec 32) = FKind.add.neutral .f32 hφ) (n : Fin 1024) :
    multiReduction .add [1] S1024 src 0x00000000#32 h hφ hacc (ix1 n) = ∑ m : Fin 1024, src (ix2 n m) := by
  refine (Ideal.multiReduction_add_single src _ h hφ hacc (ix1 n)).trans ?_
  show ∑ m : Fin 1024, src (h.lift (ix1 n) m) = _
  exact Finset.sum_congr rfl fun m _ => congrArg src (lift_row h n m)

/-- A row's sum, of 256 entries. -/
theorem rowsum256_apply (src : FVec Ideal S1024x256 .f32) (h : S1024x256.Reduces [1] S1024) (hφ : FKind.Formats .f32)
    (hacc : (0x00000000#32 : BitVec 32) = FKind.add.neutral .f32 hφ) (n : Fin 1024) :
    multiReduction .add [1] S1024 src 0x00000000#32 h hφ hacc (ix1 n) = ∑ j : Fin 256, src (ix2 n j) := by
  refine (Ideal.multiReduction_add_single src _ h hφ hacc (ix1 n)).trans ?_
  show ∑ j : Fin 256, src (h.lift (ix1 n) j) = _
  exact Finset.sum_congr rfl fun j _ => congrArg src (lift_row h n j)

/-! ## Rows and columns spread over a matrix -/

variable {α : Type}

/-- A vector viewed as a column reads its entry. -/
theorem cast_col {a : ℕ} (v : (⟨1, ![a]⟩ : Shape).Idx → α) (h : (⟨1, ![a]⟩ : Shape).ShapeCasts ⟨2, ![a, 1]⟩)
    (n : Fin a) (u : Fin 1) : shapeCast ⟨2, ![a, 1]⟩ v h (ix2 n u) = v (ix1 n) :=
  shapeCast_apply v h _ _ (by
    have hu : u.val = 0 := by omega
    rw [Shape.rowMajor_val_one, Shape.rowMajor_val_two]
    show n.val = n.val * 1 + u.val
    omega)

/-- A column spread over the columns of a matrix reads the column's entry of the row. -/
theorem bcast_col {a b : ℕ} (w : (⟨2, ![a, 1]⟩ : Shape).Idx → α) (h : (⟨2, ![a, 1]⟩ : Shape).Broadcasts ⟨2, ![a, b]⟩)
    (n : Fin a) (m : Fin b) : broadcastTo ⟨2, ![a, b]⟩ w h (ix2 n m) = w (ix2 n (0 : Fin 1)) := by
  refine broadcastTo_apply w h (ix2 n m) (ix2 n (0 : Fin 1)) fun ax => ?_
  match ax with
  | ⟨0, _⟩ =>
    show n.val = if a = 1 then 0 else n.val
    split
    · have := n.isLt; omega
    · rfl
  | ⟨1, _⟩ => rfl

/-- A vector spread down the rows of a matrix reads its entry of the column. -/
theorem bcast_vec_rows {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (n : Fin a) (j : Fin b) :
    broadcastTo ⟨2, ![a, b]⟩ (shapeCast ⟨2, ![1, b]⟩ v hc) hb (ix2 n j) = v (ix1 j) :=
  (broadcastTo_1b_ab_apply _ hb n j).trans (shapeCast_a_1a_apply v hc 0 j)

/-- A vector spread along the rows of a matrix (as a column) reads its entry of the row. -/
theorem bcast_vec_cols {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (n : Fin a) (j : Fin b) :
    broadcastTo ⟨2, ![a, b]⟩ (shapeCast ⟨2, ![a, 1]⟩ v hc) hb (ix2 n j) = v (ix1 n) :=
  (bcast_col _ hb n j).trans (cast_col v hc n 0)

end Cert.Attn.Vec

end
-- ==== Proof.Spec.lean ====
/-
  The mathematics both programs compute, one batch at a time, over the extended reals.

  A batch is a matrix `x` of 1024 rows and 256 columns and a row `μ` of 1024 mask values. Queries, keys and
  values are three linear maps of the rows of `x` (`lin`). The logit of the pair (n, m) is the inner product
  of query row n with key row m, scaled by the word 0x3D800000 (one sixteenth), plus a bias that depends on
  the product μ n · μ m only (`logit`); each row of logits goes through a softmax taken against the row's
  maximum (`rowMax`, `softmax`); the result mixes the value rows (`mix`); and each mixed row is centred, scaled
  by the inverse root of its variance plus the word 0x3727C5AC, multiplied by γ, shifted by β and clipped at
  zero (`lnRelu`). The float words are kept as words: both programs spell the same ones, so none is evaluated
  except in `mask_bias`, the one place where the two programs arrange their arithmetic differently.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Row `n` of `x` through a linear layer: `∑ d, x n d · W d h + b h`. -/
def lin (x : Fin 1024 → Fin 256 → EReal) (W : Fin 256 → Fin 256 → EReal) (b : Fin 256 → EReal)
    (n : Fin 1024) (h : Fin 256) : EReal :=
  (∑ d : Fin 256, x n d * W d h) + b h

/-- The bias of a pair whose mask product is `a`: `a · 100001 − 100000`, which is `1` at `a = 1` and
    `−100000` at `a = 0`. -/
def bias (a : EReal) : EReal :=
  a * Ideal.ofBits .f32 0x47C35080#32 - Ideal.ofBits .f32 0x47C35000#32

/-- The logit of query row `n` against key row `m`: the scaled inner product plus the pair's bias. -/
def logit (q k : Fin 1024 → Fin 256 → EReal) (μ : Fin 1024 → EReal) (n m : Fin 1024) : EReal :=
  (∑ h : Fin 256, q n h * k m h) * Ideal.ofBits .f32 0x3D800000#32 + bias (μ n * μ m)

/-- A row's maximum, taken from `−∞` (the word 0xFF800000) and once more against it. -/
def rowMax (t : Fin 1024 → EReal) : EReal :=
  max (Ideal.ofBits .f32 0xFF800000#32)
    ((Finset.univ : Finset (Fin 1024)).fold max (Ideal.ofBits .f32 0xFF800000#32) t)

/-- The softmax of a row, taken against the row's maximum. -/
def softmax (t : Fin 1024 → EReal) (m : Fin 1024) : EReal :=
  Ideal.div (Ideal.exp (t m - rowMax t)) (∑ j : Fin 1024, Ideal.exp (t j - rowMax t))

/-- A row of weights mixing the value rows. -/
def mix (p : Fin 1024 → EReal) (v : Fin 1024 → Fin 256 → EReal) (h : Fin 256) : EReal :=
  ∑ m : Fin 1024, p m * v m h

/-- The mean of a row of 256 entries (the divisor is the word 0x43800000). -/
def mean (o : Fin 256 → EReal) : EReal :=
  Ideal.div (∑ j : Fin 256, o j) (Ideal.ofBits .f32 0x43800000#32)

/-- Layer normalisation of a row, with scale `g` and shift `be`, clipped at zero. -/
def lnRelu (o g be : Fin 256 → EReal) (h : Fin 256) : EReal :=
  max ((o h - mean o)
        * Ideal.rsqrt (mean (fun j => (o j - mean o) * (o j - mean o)) + Ideal.ofBits .f32 0x3727C5AC#32)
        * g h + be h)
    (Ideal.ofBits .f32 0x00000000#32)

/-- One batch: attention over the rows of `x` under the mask `μ`, then the normalisation. -/
def attn (x : Fin 1024 → Fin 256 → EReal) (μ : Fin 1024 → EReal) (Wq : Fin 256 → Fin 256 → EReal) (bq : Fin 256 → EReal)
    (Wk : Fin 256 → Fin 256 → EReal) (bk : Fin 256 → EReal) (Wv : Fin 256 → Fin 256 → EReal) (bv g be : Fin 256 → EReal)
    (n : Fin 1024) (h : Fin 256) : EReal :=
  lnRelu (mix (softmax (logit (lin x Wq bq) (lin x Wk bk) μ n)) (lin x Wv bv)) g be h

/-! ## The arrays: 32 batches, and the whole result -/

/-- Batch `b` of the features, as a matrix. -/
def rowsOf (x : (⟨3, ![32, 1024, 256]⟩ : Shape).Idx → EReal) (b : Fin 32) : Fin 1024 → Fin 256 → EReal :=
  fun n d => x (ix3 b n d)

/-- A weight matrix by rows and columns. -/
def matOf (W : (⟨2, ![256, 256]⟩ : Shape).Idx → EReal) : Fin 256 → Fin 256 → EReal := fun d h => W (ix2 d h)

/-- A vector of 256 entries by its one coordinate. -/
def vecOf (v : (⟨1, ![256]⟩ : Shape).Idx → EReal) : Fin 256 → EReal := fun h => v (ix1 h)

/-- Batch `b` of the mask: each integer read as a real. -/
def maskOf (z : (⟨2, ![32, 1024]⟩ : Shape).Idx → BitVec 32) (b : Fin 32) : Fin 1024 → EReal :=
  fun n => (((z (ix2 b n)).toInt : ℝ) : EReal)

/-- The whole result: entry (b, n, h) is batch `b`'s attention and normalisation at (n, h). -/
def G (x : (⟨3, ![32, 1024, 256]⟩ : Shape).Idx → EReal) (z : (⟨2, ![32, 1024]⟩ : Shape).Idx → BitVec 32)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv g be : (⟨1, ![256]⟩ : Shape).Idx → EReal) :
    (⟨3, ![32, 1024, 256]⟩ : Shape).Idx → EReal :=
  fun i => attn (rowsOf x ⟨(i 0).val, (i 0).isLt⟩) (maskOf z ⟨(i 0).val, (i 0).isLt⟩) (matOf Wq) (vecOf bq) (matOf Wk) (vecOf bk)
    (matOf Wv) (vecOf bv) (vecOf g) (vecOf be) ⟨(i 1).val, (i 1).isLt⟩ ⟨(i 2).val, (i 2).isLt⟩

theorem G_apply (x : (⟨3, ![32, 1024, 256]⟩ : Shape).Idx → EReal) (z : (⟨2, ![32, 1024]⟩ : Shape).Idx → BitVec 32)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv g be : (⟨1, ![256]⟩ : Shape).Idx → EReal)
    (b : Fin 32) (n : Fin 1024) (h : Fin 256) :
    G x z Wq bq Wk bk Wv bv g be (ix3 b n h)
      = attn (rowsOf x b) (maskOf z b) (matOf Wq) (vecOf bq) (matOf Wk) (vecOf bk) (matOf Wv) (vecOf bv) (vecOf g) (vecOf be) n h := rfl

/-! ## The three words of the bias, and the one law that joins the two arrangements -/

theorem word_100001 : Ideal.ofBits .f32 0x47C35080#32 = ((100001 : ℝ) : EReal) := by
  simp [Ideal.ofBits, Ideal.ieee, -EReal.coe_mul]; norm_num

theorem word_100000 : Ideal.ofBits .f32 0x47C35000#32 = ((100000 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

/-- For a FINITE mask product `a`, `a − 100000 · (1 − a) = a · 100001 − 100000`: distributivity, which the
    extended reals have on the reals. (A mask value is an integer read as a real, so the product is finite.) -/
theorem mask_bias (r : ℝ) :
    (r : EReal) - Ideal.ofBits .f32 0x47C35000#32 * (Ideal.ofBits .f32 0x3F800000#32 - (r : EReal)) = bias (r : EReal) := by
  unfold bias
  rw [word_100001, word_100000, word_one, ← EReal.coe_sub, ← EReal.coe_mul, ← EReal.coe_sub, ← EReal.coe_mul,
    ← EReal.coe_sub]
  exact congrArg _ (by ring)

end Cert.Attn

end
-- ==== Proof.KernelPieces.lean ====
/-
  The kernel's body cut into the same pieces as the mathematics — the biased logits, the row maximum, the exponentials,
  the softmax, the mix of the value rows, the row mean, the centred rows, the normalisation — each piece a vector
  operation of the body's own, and the body's last payload as their composition.
-/
import proofs.«137331_j41205916237953_1_alg».proof.Proof.Gen.KernelIdeal.Skeleton
import proofs.«137331_j41205916237953_1_alg».proof.Proof.VecRead
import proofs.«137331_j41205916237953_1_alg».proof.Proof.Spec

noncomputable section

namespace Cert.Attn.Body

open Cert.KernelIdeal Cert.KernelIdeal.Gen Idealize.ShloMosaic Idealize.ShloMosaic.ValueIdx Cert.Attn Cert.Attn.Vec

/-! ## The pieces of the body, as vector operations -/

/-- The biased logits from the scaled scores `s` and the mask products `a`. -/
def logitsV (s a : FVec Ideal S1024x1024 .f32) : FVec Ideal S1024x1024 .f32 :=
  addf s (subf (mulf a (broadcast S1024x1024 (Scalar.ofBits .f32 0x47C35080#32))) (broadcast S1024x1024 (Scalar.ofBits .f32 0x47C35000#32)))

/-- Each row's maximum. -/
def maxV (t : FVec Ideal S1024x1024 .f32) : FVec Ideal S1024 .f32 :=
  maximumf (broadcast S1024 (Scalar.ofBits .f32 0xFF800000#32))
    (multiReduction .maximumf [1] S1024 t 0xFF800000#32 reduces_S1024x1024_S1024 (.inl rfl) rfl)

/-- The exponentials of a matrix of logits against each row's maximum. -/
def expV (t : FVec Ideal S1024x1024 .f32) : FVec Ideal S1024x1024 .f32 :=
  exp (subf t (broadcastTo S1024x1024 (shapeCast S1024x1 (maxV t) shapeCasts_S1024_S1024x1) broadcasts_S1024x1_S1024x1024))

/-- The softmax of each row. -/
def softV (t : FVec Ideal S1024x1024 .f32) : FVec Ideal S1024x1024 .f32 :=
  divf (expV t) (broadcastTo S1024x1024 (shapeCast S1024x1
    (multiReduction .add [1] S1024 (expV t) 0x00000000#32 reduces_S1024x1024_S1024 (.inl rfl) rfl) shapeCasts_S1024_S1024x1) broadcasts_S1024x1_S1024x1024)

/-- The weights times the value rows. -/
def mixV (p : FVec Ideal S1024x1024 .f32) (v : FVec Ideal S1024x256 .f32) : FVec Ideal S1024x256 .f32 :=
  matmul dot_S1024x1024_S1024x256_S1024x256_1_0_0_1_n_n none (truncf .bf16 p bitsLt_bf16_f32) (truncf .bf16 v bitsLt_bf16_f32)
    (constant S1024x256 .f32 0x00000000#32)

/-- Each row's mean, as a column. -/
def meanV (o : FVec Ideal S1024x256 .f32) : FVec Ideal S1024x1 .f32 :=
  divf (shapeCast S1024x1 (multiReduction .add [1] S1024 o 0x00000000#32 reduces_S1024x256_S1024 (.inl rfl) rfl) shapeCasts_S1024_S1024x1)
    (broadcast S1024x1 (Scalar.ofBits .f32 0x43800000#32))

/-- Each row centred. -/
def centreV (o : FVec Ideal S1024x256 .f32) : FVec Ideal S1024x256 .f32 :=
  subf o (broadcastTo S1024x256 (meanV o) broadcasts_S1024x1_S1024x256)

/-- The normalisation of each row, scaled, shifted and clipped at zero. -/
def lnV (o : FVec Ideal S1024x256 .f32) (g be : Vec Ideal S256 .f32) : FVec Ideal S1024x256 .f32 :=
  maximumf
    (addf
      (mulf
        (mulf (centreV o)
          (broadcastTo S1024x256
            (rsqrt (addf (meanV (mulf (centreV o) (centreV o))) (broadcast S1024x1 (Scalar.ofBits .f32 0x3727C5AC#32))))
            broadcasts_S1024x1_S1024x256))
        (broadcastTo S1024x256 (shapeCast S1x256 g shapeCasts_S256_S1x256) broadcasts_S1x256_S1024x256))
      (broadcastTo S1024x256 (shapeCast S1x256 be shapeCasts_S256_S1x256) broadcasts_S1x256_S1024x256))
    (broadcast S1024x256 (Scalar.ofBits .f32 0x00000000#32))

/-- The body's last payload is these pieces composed. -/
theorem pay6_eq (v23 : FVec Ideal S1024x256 .f32) (v28 v35 : FVec Ideal S1024x1024 .f32) (g be : Vec Ideal S256 .f32) :
    k0_pay6 v23 v28 v35 g be = lnV (mixV (softV (logitsV v28 v35)) v23) g be := rfl

end Cert.Attn.Body

end
-- ==== Proof.KernelValue.lean ====
/-
  The kernel's body, read at an index of its output block: one batch of the mathematics.

  The body is cut into the same pieces as the mathematics — the three linear maps, the scaled inner products, the mask
  product, the biased logits, the softmax against the row maximum, the mix of the value rows, the normalisation — each
  piece a vector operation of the body's own, and each read at an entry by the lemmas on matrix products, lane
  reductions and spread rows and columns. A change of float format is the identity on the extended reals, so the
  roundings to sixteen bits on the way into the matrix products disappear by themselves.
-/
import proofs.«137331_j41205916237953_1_alg».proof.Proof.KernelPieces

noncomputable section

namespace Cert.Attn.Body

open Cert.KernelIdeal Cert.KernelIdeal.Gen Idealize.ShloMosaic Idealize.ShloMosaic.ValueIdx Cert.Attn Cert.Attn.Vec

/-! ## Each piece at an entry -/

/-- The feature block viewed as a matrix. -/
theorem pay2_apply (P0 : Vec Ideal S1x1024x256 .f32) (n : Fin 1024) (d : Fin 256) :
    k0_pay2 P0 (ix2 n d) = P0 (ix3 (0 : Fin 1) n d) :=
  shapeCast_1ab_ab_apply P0 shapeCasts_S1x1024x256_S1024x256 n d

/-- A linear map of the block's rows. -/
theorem pay3_apply (P0 : Vec Ideal S1x1024x256 .f32) (W : Vec Ideal S256x256 .f32) (c : Vec Ideal S256 .f32) (n : Fin 1024) (h : Fin 256) :
    k0_pay3 P0 W c (ix2 n h) = lin (fun n d => P0 (ix3 (0 : Fin 1) n d)) (matOf W) (vecOf c) n h := by
  show matmul dot_S1024x256_S256x256_S1024x256_1_0_0_1_n_n none (k0_pay2 P0) (truncf .bf16 W bitsLt_bf16_f32) (constant S1024x256 .f32 0x00000000#32) (ix2 n h)
      + broadcastTo S1024x256 (shapeCast S1x256 c shapeCasts_S256_S1x256) broadcasts_S1x256_S1024x256 (ix2 n h) = _
  refine (congrArg₂ (· + ·) (matmul_rows _ _ n h) (bcast_vec_rows c shapeCasts_S256_S1x256 broadcasts_S1x256_S1024x256 n h)).trans ?_
  unfold lin
  exact congrArg (· + vecOf c h) (Finset.sum_congr rfl fun d _ => congrArg (· * matOf W d h) (pay2_apply P0 n d))

/-- The scaled inner products of query rows and key rows. -/
theorem pay4_apply (P0 : Vec Ideal S1x1024x256 .f32) (Wq Wk : Vec Ideal S256x256 .f32) (bq bk : Vec Ideal S256 .f32) (n m : Fin 1024) :
    k0_pay4 P0 Wq Wk bq bk (ix2 n m)
      = (∑ h : Fin 256, k0_pay3 P0 Wq bq (ix2 n h) * k0_pay3 P0 Wk bk (ix2 m h)) * Ideal.ofBits .f32 0x3D800000#32 := by
  show matmul dot_S1024x256_S1024x256_S1024x1024_1_1_0_0_n_n none (truncf .bf16 (k0_pay3 P0 Wq bq) bitsLt_bf16_f32)
        (truncf .bf16 (k0_pay3 P0 Wk bk) bitsLt_bf16_f32) (constant S1024x1024 .f32 0x00000000#32) (ix2 n m)
      * Ideal.ofBits .f32 0x3D800000#32 = _
  exact congrArg (· * Ideal.ofBits .f32 0x3D800000#32) (matmul_gram _ _ n m)

/-- The mask products: the query mask's column entry times the key mask's row entry. -/
theorem maskprod_apply (Mq : FVec Ideal S1x1024x1 .f32) (Mk : FVec Ideal S1x1x1024 .f32) (n m : Fin 1024) :
    mulf (F := Ideal) (broadcastTo S1024x1024 (shapeCast S1024x1 Mq shapeCasts_S1x1024x1_S1024x1) broadcasts_S1024x1_S1024x1024)
        (broadcastTo S1024x1024 (shapeCast S1x1024 Mk shapeCasts_S1x1x1024_S1x1024) broadcasts_S1x1024_S1024x1024) (ix2 n m)
      = Mq (ix3 (0 : Fin 1) n (0 : Fin 1)) * Mk (ix3 (0 : Fin 1) (0 : Fin 1) m) := by
  show broadcastTo S1024x1024 (shapeCast S1024x1 Mq shapeCasts_S1x1024x1_S1024x1) broadcasts_S1024x1_S1024x1024 (ix2 n m)
      * broadcastTo S1024x1024 (shapeCast S1x1024 Mk shapeCasts_S1x1x1024_S1x1024) broadcasts_S1x1024_S1024x1024 (ix2 n m) = _
  exact congrArg₂ (· * ·)
    ((bcast_col _ broadcasts_S1024x1_S1024x1024 n m).trans (shapeCast_1ab_ab_apply Mq shapeCasts_S1x1024x1_S1024x1 n 0))
    ((broadcastTo_1b_ab_apply _ broadcasts_S1x1024_S1024x1024 n m).trans (shapeCast_1ab_ab_apply Mk shapeCasts_S1x1x1024_S1x1024 0 m))

/-- The biased logits at an entry. -/
theorem logitsV_apply (s a : FVec Ideal S1024x1024 .f32) (n m : Fin 1024) :
    logitsV s a (ix2 n m) = s (ix2 n m) + bias (a (ix2 n m)) := rfl

/-- A row's maximum. -/
theorem maxV_apply (t : FVec Ideal S1024x1024 .f32) (n : Fin 1024) :
    maxV t (ix1 n) = rowMax (fun j => t (ix2 n j)) := by
  unfold maxV rowMax
  rw [maximumf_apply, broadcast_apply]
  exact congrArg (max (Ideal.ofBits .f32 0xFF800000#32)) (rowmax_apply t reduces_S1024x1024_S1024 (.inl rfl) rfl n)

/-- An exponential against the row's maximum. -/
theorem expV_apply (t : FVec Ideal S1024x1024 .f32) (n m : Fin 1024) :
    expV t (ix2 n m) = Ideal.exp (t (ix2 n m) - rowMax (fun j => t (ix2 n j))) := by
  show Ideal.exp (t (ix2 n m)
      - broadcastTo S1024x1024 (shapeCast S1024x1 (maxV t) shapeCasts_S1024_S1024x1) broadcasts_S1024x1_S1024x1024 (ix2 n m)) = _
  exact congrArg (fun z => Ideal.exp (t (ix2 n m) - z))
    ((bcast_vec_cols (maxV t) shapeCasts_S1024_S1024x1 broadcasts_S1024x1_S1024x1024 n m).trans (maxV_apply t n))

/-- The softmax of a row at an entry. -/
theorem softV_apply (t : FVec Ideal S1024x1024 .f32) (n m : Fin 1024) :
    softV t (ix2 n m) = softmax (fun j => t (ix2 n j)) m := by
  show Ideal.div (expV t (ix2 n m))
      (broadcastTo S1024x1024 (shapeCast S1024x1
        (multiReduction .add [1] S1024 (expV t) 0x00000000#32 reduces_S1024x1024_S1024 (.inl rfl) rfl) shapeCasts_S1024_S1024x1)
        broadcasts_S1024x1_S1024x1024 (ix2 n m)) = _
  unfold softmax
  refine congrArg₂ Ideal.div (expV_apply t n m) ?_
  refine (bcast_vec_cols _ shapeCasts_S1024_S1024x1 broadcasts_S1024x1_S1024x1024 n m).trans ?_
  refine (rowsum_apply (expV t) reduces_S1024x1024_S1024 (.inl rfl) rfl n).trans ?_
  exact Finset.sum_congr rfl fun j _ => expV_apply t n j

/-- The mix at an entry. -/
theorem mixV_apply (p : FVec Ideal S1024x1024 .f32) (v : FVec Ideal S1024x256 .f32) (n : Fin 1024) (h : Fin 256) :
    mixV p v (ix2 n h) = mix (fun m => p (ix2 n m)) (fun m h => v (ix2 m h)) h :=
  matmul_mix _ _ n h

/-- A row's mean. -/
theorem meanV_apply (o : FVec Ideal S1024x256 .f32) (n : Fin 1024) :
    meanV o (ix2 n (0 : Fin 1)) = mean (fun j => o (ix2 n j)) := by
  show Ideal.div (shapeCast S1024x1 (multiReduction .add [1] S1024 o 0x00000000#32 reduces_S1024x256_S1024 (.inl rfl) rfl) shapeCasts_S1024_S1024x1 (ix2 n (0 : Fin 1)))
      (Ideal.ofBits .f32 0x43800000#32) = _
  exact congrArg (fun z => Ideal.div z (Ideal.ofBits .f32 0x43800000#32))
    ((cast_col _ shapeCasts_S1024_S1024x1 n 0).trans (rowsum256_apply o reduces_S1024x256_S1024 (.inl rfl) rfl n))

/-- A centred entry. -/
theorem centreV_apply (o : FVec Ideal S1024x256 .f32) (n : Fin 1024) (j : Fin 256) :
    centreV o (ix2 n j) = o (ix2 n j) - mean (fun j => o (ix2 n j)) := by
  show o (ix2 n j) - broadcastTo S1024x256 (meanV o) broadcasts_S1024x1_S1024x256 (ix2 n j) = _
  exact congrArg (o (ix2 n j) - ·) ((bcast_col _ broadcasts_S1024x1_S1024x256 n j).trans (meanV_apply o n))

/-- The normalisation at an entry. -/
theorem lnV_apply (o : FVec Ideal S1024x256 .f32) (g be : Vec Ideal S256 .f32) (n : Fin 1024) (h : Fin 256) :
    lnV o g be (ix2 n h) = lnRelu (fun j => o (ix2 n j)) (vecOf g) (vecOf be) h := by
  have hr : broadcastTo S1024x256
            (rsqrt (addf (meanV (mulf (centreV o) (centreV o))) (broadcast S1024x1 (Scalar.ofBits .f32 0x3727C5AC#32))))
            broadcasts_S1024x1_S1024x256 (ix2 n h)
        = Ideal.rsqrt (mean (fun j => (o (ix2 n j) - mean (fun j => o (ix2 n j))) * (o (ix2 n j) - mean (fun j => o (ix2 n j))))
            + Ideal.ofBits .f32 0x3727C5AC#32) := by
    refine (bcast_col _ broadcasts_S1024x1_S1024x256 n h).trans ?_
    show Ideal.rsqrt (meanV (mulf (centreV o) (centreV o)) (ix2 n (0 : Fin 1)) + Ideal.ofBits .f32 0x3727C5AC#32) = _
    refine congrArg (fun z => Ideal.rsqrt (z + Ideal.ofBits .f32 0x3727C5AC#32)) ((meanV_apply _ n).trans ?_)
    exact congrArg mean (funext fun j => congrArg₂ (· * ·) (centreV_apply o n j) (centreV_apply o n j))
  unfold lnV lnRelu
  rw [maximumf_apply, addf_apply, mulf_apply, mulf_apply, broadcast_apply, hr, centreV_apply o n h,
    bcast_vec_rows g shapeCasts_S256_S1x256 broadcasts_S1x256_S1024x256 n h,
    bcast_vec_rows be shapeCasts_S256_S1x256 broadcasts_S1x256_S1024x256 n h]
  rfl

/-! ## The body's result at an entry -/

/-- The body's result on blocks `P0` (features), the three weight matrices and biases, the two mask blocks (whose
    entries are the values `μ` of one mask), and the scale and shift: one batch of the mathematics. -/
theorem body_apply (P0 : Vec Ideal S1x1024x256 .f32) (Wv : Vec Ideal S256x256 .f32) (bv : Vec Ideal S256 .f32)
    (Wq Wk : Vec Ideal S256x256 .f32) (bq bk : Vec Ideal S256 .f32) (Mq : FVec Ideal S1x1024x1 .f32) (Mk : FVec Ideal S1x1x1024 .f32)
    (g be : Vec Ideal S256 .f32) (μ : Fin 1024 → EReal) (hq : ∀ n : Fin 1024, Mq (ix3 (0 : Fin 1) n (0 : Fin 1)) = μ n)
    (hk : ∀ m : Fin 1024, Mk (ix3 (0 : Fin 1) (0 : Fin 1) m) = μ m) (n : Fin 1024) (h : Fin 256) :
    k0_pay6 (k0_pay3 P0 Wv bv) (k0_pay4 P0 Wq Wk bq bk)
        (mulf (broadcastTo S1024x1024 (shapeCast S1024x1 Mq shapeCasts_S1x1024x1_S1024x1) broadcasts_S1024x1_S1024x1024)
          (broadcastTo S1024x1024 (shapeCast S1x1024 Mk shapeCasts_S1x1x1024_S1x1024) broadcasts_S1x1024_S1024x1024)) g be (ix2 n h)
      = attn (fun n d => P0 (ix3 (0 : Fin 1) n d)) μ (matOf Wq) (vecOf bq) (matOf Wk) (vecOf bk) (matOf Wv) (vecOf bv)
          (vecOf g) (vecOf be) n h := by
  rw [pay6_eq, lnV_apply]
  unfold attn
  refine congrArg (fun o => lnRelu o (vecOf g) (vecOf be) h) (funext fun j => ?_)
  rw [mixV_apply]
  refine congrArg₂ (fun p v => mix p v j) (funext fun m => ?_) (funext fun m => funext fun h' => pay3_apply P0 Wv bv m h')
  rw [softV_apply]
  refine congrArg (fun t => softmax t m) (funext fun m' => ?_)
  rw [logitsV_apply, pay4_apply, maskprod_apply, hq, hk]
  unfold logit
  exact congrArg (fun s => s * Ideal.ofBits .f32 0x3D800000#32 + bias (μ n * μ m'))
    (Finset.sum_congr rfl fun h' _ => congrArg₂ (· * ·) (pay3_apply P0 Wq bq n h') (pay3_apply P0 Wk bk m' h'))

end Cert.Attn.Body

end
-- ==== Proof.KernelArray.lean ====
/-
  From blocks to the array. The grid has one point per batch: at point `t` the feature block, the two mask blocks and
  the output block are block `t` of their arrays along the batch axis, and the weights, biases, scale and shift are
  whole arrays. So what point `t` writes back is batch `t` of the whole result, the 32 blocks cover the output array,
  and the array ends holding the whole result. The two mask arrays are written by the program before the launch: both
  are the integer mask read as reals and laid out as a column and as a row.
-/
import proofs.«137331_j41205916237953_1_alg».proof.Proof.Gen.KernelIdeal.Value
import proofs.«137331_j41205916237953_1_alg».proof.Proof.KernelValue
import Idealize.ShloMosaic.Lib.StableHlo.Run

noncomputable section

namespace Cert.Attn.Arr

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body leaves in the output block, over blocks as variables -/

/-- The output block at (u, n, h) is one batch of the mathematics at (n, h), of the input blocks. -/
theorem out_apply (x0 : Vec Ideal S1x1024x256 .f32) (x1 : Vec Ideal S1x1024x1 .f32) (x2 : Vec Ideal S1x1x1024 .f32)
    (x3 : Vec Ideal S256x256 .f32) (x4 : Vec Ideal S256 .f32) (x5 : Vec Ideal S256x256 .f32) (x6 : Vec Ideal S256 .f32)
    (x7 : Vec Ideal S256x256 .f32) (x8 x9 x10 : Vec Ideal S256 .f32) (μ : Fin 1024 → EReal)
    (hq : ∀ n : Fin 1024, x1 (ix3 (0 : Fin 1) n (0 : Fin 1)) = μ n) (hk : ∀ k : Fin 1024, x2 (ix3 (0 : Fin 1) (0 : Fin 1) k) = μ k)
    (u : Fin 1) (n : Fin 1024) (h : Fin 256) :
    out0_11 x0 x1 x2 x3 x4 x5 x6 x7 x8 x9 x10 (ix3 u n h)
      = attn (fun n d => x0 (ix3 (0 : Fin 1) n d)) μ (matOf x3) (vecOf x4) (matOf x5) (vecOf x6) (matOf x7) (vecOf x8)
          (vecOf x9) (vecOf x10) n h := by
  unfold out0_11
  simp only [View.ld_unit_zero (S := S1x1024x256) hz3, View.ld_unit_zero (S := S256x256) hz2, View.ld_unit_zero (S := S256) hz1,
    View.ld_unit_zero (S := S1x1024x1) hz3, View.ld_unit_zero (S := S1x1x1024) hz3]
  refine (Cert.KernelIdeal.Value.canon11_eq x0 x7 x8 x3 x5 x4 x6 x1 x2 x9 x10 (ix3 u n h)).trans ?_
  have hi : Cert.KernelIdeal.Value.ix11_0 (ix3 u n h) = ix2 n h :=
    funext fun a => Fin.ext (by match a with | ⟨0, _⟩ => rfl | ⟨1, _⟩ => rfl)
  show (k0_pay6 (k0_pay3 x0 x7 x8) (k0_pay4 x0 x3 x5 x4 x6)
      (mulf (broadcastTo S1024x1024 (shapeCast S1024x1 x1 shapeCasts_S1x1024x1_S1024x1) broadcasts_S1024x1_S1024x1024)
        (broadcastTo S1024x1024 (shapeCast S1x1024 x2 shapeCasts_S1x1x1024_S1x1024) broadcasts_S1x1024_S1024x1024)) x9 x10)
      (Cert.KernelIdeal.Value.ix11_0 (ix3 u n h)) = _
  rw [hi]
  exact Body.body_apply x0 x7 x8 x3 x5 x4 x6 x1 x2 x9 x10 μ hq hk n h

/-! ## The grid: where each window's block sits at point `t` -/

theorem idx_facts0 : ∀ t : Fin cfg0.N,
    win0_0.index t (0 : Fin 3) = t.val ∧ win0_0.index t (1 : Fin 3) = 0 ∧ win0_0.index t (2 : Fin 3) = 0 :=
  (by decide +kernel : ∀ t : Fin grid0.N, _)

theorem idx_facts1 : ∀ t : Fin cfg0.N,
    win0_1.index t (0 : Fin 3) = t.val ∧ win0_1.index t (1 : Fin 3) = 0 ∧ win0_1.index t (2 : Fin 3) = 0 :=
  (by decide +kernel : ∀ t : Fin grid0.N, _)

theorem idx_facts2 : ∀ t : Fin cfg0.N,
    win0_2.index t (0 : Fin 3) = t.val ∧ win0_2.index t (1 : Fin 3) = 0 ∧ win0_2.index t (2 : Fin 3) = 0 :=
  (by decide +kernel : ∀ t : Fin grid0.N, _)

theorem idx_facts11 : ∀ t : Fin cfg0.N,
    win0_11.index t (0 : Fin 3) = t.val ∧ win0_11.index t (1 : Fin 3) = 0 ∧ win0_11.index t (2 : Fin 3) = 0 :=
  (by decide +kernel : ∀ t : Fin grid0.N, _)

theorem idx_facts3 : ∀ t : Fin cfg0.N, win0_3.index t (0 : Fin 2) = 0 ∧ win0_3.index t (1 : Fin 2) = 0 :=
  (by decide +kernel : ∀ t : Fin grid0.N, _)

theorem idx_facts5 : ∀ t : Fin cfg0.N, win0_5.index t (0 : Fin 2) = 0 ∧ win0_5.index t (1 : Fin 2) = 0 :=
  (by decide +kernel : ∀ t : Fin grid0.N, _)

theorem idx_facts7 : ∀ t : Fin cfg0.N, win0_7.index t (0 : Fin 2) = 0 ∧ win0_7.index t (1 : Fin 2) = 0 :=
  (by decide +kernel : ∀ t : Fin grid0.N, _)

theorem idx_facts4 : ∀ t : Fin cfg0.N, win0_4.index t (0 : Fin 1) = 0 :=
  (by decide +kernel : ∀ t : Fin grid0.N, _)

theorem idx_facts6 : ∀ t : Fin cfg0.N, win0_6.index t (0 : Fin 1) = 0 :=
  (by decide +kernel : ∀ t : Fin grid0.N, _)

theorem idx_facts8 : ∀ t : Fin cfg0.N, win0_8.index t (0 : Fin 1) = 0 :=
  (by decide +kernel : ∀ t : Fin grid0.N, _)

theorem idx_facts9 : ∀ t : Fin cfg0.N, win0_9.index t (0 : Fin 1) = 0 :=
  (by decide +kernel : ∀ t : Fin grid0.N, _)

theorem idx_facts10 : ∀ t : Fin cfg0.N, win0_10.index t (0 : Fin 1) = 0 :=
  (by decide +kernel : ∀ t : Fin grid0.N, _)

/-- The batch a grid point works on. -/
def batchOf (t : Fin cfg0.N) : Fin 32 := ⟨t.val, by have h : grid0.N = 32 := N_0; have ht : t.val < grid0.N := t.isLt; omega⟩

/-! ## The two mask arrays the program writes before the launch -/

theorem V_qmask (c : Dev nD) :
    (V m c main_v1 : S32x1024x1.Idx → EReal)
      = broadcastInDim S32x1024x1 ![0, 1] bcast_S32x1024_S32x1024x1_0_1 (sitofp (F := Ideal) .f32 (m ((c : Thread nD τ).loc main_arg1))) := by
  dsimp only [Gen.V, Gen.hostOps0]; after_results

theorem V_kmask (c : Dev nD) :
    (V m c main_v2 : S32x1x1024.Idx → EReal)
      = broadcastInDim S32x1x1024 ![0, 2] bcast_S32x1024_S32x1x1024_0_2 (sitofp (F := Ideal) .f32 (m ((c : Thread nD τ).loc main_arg1))) := by
  dsimp only [Gen.V, Gen.hostOps0]; after_results

theorem V_qmask_apply (c : Dev nD) (b : Fin 32) (n : Fin 1024) (u : Fin 1) :
    V m c main_v1 (ix3 b n u) = maskOf (m ((c : Thread nD τ).loc main_arg1)) b n := by
  rw [V_qmask]
  exact broadcastInDim_apply _ bcast_S32x1024_S32x1024x1_0_1 _ (ix3 b n u) (ix2 b n) (fun a => match a with
    | ⟨0, _⟩ => by show b.val = if (32 : Nat) = 1 then 0 else b.val; rw [if_neg (by decide)]
    | ⟨1, _⟩ => by show n.val = if (1024 : Nat) = 1 then 0 else n.val; rw [if_neg (by decide)])

theorem V_kmask_apply (c : Dev nD) (b : Fin 32) (u : Fin 1) (k : Fin 1024) :
    V m c main_v2 (ix3 b u k) = maskOf (m ((c : Thread nD τ).loc main_arg1)) b k := by
  rw [V_kmask]
  exact broadcastInDim_apply _ bcast_S32x1024_S32x1x1024_0_2 _ (ix3 b u k) (ix2 b k) (fun a => match a with
    | ⟨0, _⟩ => by show b.val = if (32 : Nat) = 1 then 0 else b.val; rw [if_neg (by decide)]
    | ⟨1, _⟩ => by show k.val = if (1024 : Nat) = 1 then 0 else k.val; rw [if_neg (by decide)])

/-! ## Each input block read where it sits in its array -/

theorem blk0_apply (c : Dev nD) (t : Fin cfg0.N) (u : Fin 1) (n : Fin 1024) (d : Fin 256) :
    iblk m c 0 t (ix3 u n d) = (m ((c : Thread nD τ).loc main_arg0)) (ix3 (batchOf t) n d) := by
  show V m c main_arg0 (((cfg0.win 0).blk t).view.emb (ix3 u n d)) = _
  rw [V_main_arg0]
  obtain ⟨e0, e1, e2⟩ := idx_facts0 t
  refine congrArg _ (funext fun a => Fin.ext ?_)
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 256 + 1 * d.val = d.val; omega

theorem blk1_apply (c : Dev nD) (t : Fin cfg0.N) (u : Fin 1) (n : Fin 1024) (w : Fin 1) :
    iblk m c 1 t (ix3 u n w) = maskOf (m ((c : Thread nD τ).loc main_arg1)) (batchOf t) n := by
  show V m c main_v1 (((cfg0.win 1).blk t).view.emb (ix3 u n w)) = _
  obtain ⟨e0, e1, e2⟩ := idx_facts1 t
  have hi : ((cfg0.win 1).blk t).view.emb (ix3 u n w) = ix3 (batchOf t) n w := funext fun a => Fin.ext (by
    match a with
    | ⟨0, _⟩ => show win0_1.index t (0 : Fin 3) * 1 + 1 * u.val = t.val; omega
    | ⟨1, _⟩ => show win0_1.index t (1 : Fin 3) * 1024 + 1 * n.val = n.val; omega
    | ⟨2, _⟩ => show win0_1.index t (2 : Fin 3) * 1 + 1 * w.val = w.val; omega)
  rw [hi]
  exact V_qmask_apply m c (batchOf t) n w

theorem blk2_apply (c : Dev nD) (t : Fin cfg0.N) (u : Fin 1) (w : Fin 1) (k : Fin 1024) :
    iblk m c 2 t (ix3 u w k) = maskOf (m ((c : Thread nD τ).loc main_arg1)) (batchOf t) k := by
  show V m c main_v2 (((cfg0.win 2).blk t).view.emb (ix3 u w k)) = _
  obtain ⟨e0, e1, e2⟩ := idx_facts2 t
  have hi : ((cfg0.win 2).blk t).view.emb (ix3 u w k) = ix3 (batchOf t) w k := funext fun a => Fin.ext (by
    match a with
    | ⟨0, _⟩ => show win0_2.index t (0 : Fin 3) * 1 + 1 * u.val = t.val; omega
    | ⟨1, _⟩ => show win0_2.index t (1 : Fin 3) * 1 + 1 * w.val = w.val; omega
    | ⟨2, _⟩ => show win0_2.index t (2 : Fin 3) * 1024 + 1 * k.val = k.val; omega)
  rw [hi]
  exact V_kmask_apply m c (batchOf t) w k

theorem blk3_apply (c : Dev nD) (t : Fin cfg0.N) (d h : Fin 256) :
    iblk m c 3 t (ix2 d h) = (m ((c : Thread nD τ).loc main_arg2)) (ix2 d h) := by
  show V m c main_arg2 (((cfg0.win 3).blk t).view.emb (ix2 d h)) = _
  rw [V_main_arg2]
  obtain ⟨e0, e1⟩ := idx_facts3 t
  refine congrArg _ (funext fun a => Fin.ext ?_)
  match a with
  | ⟨0, _⟩ => show win0_3.index t (0 : Fin 2) * 256 + 1 * d.val = d.val; omega
  | ⟨1, _⟩ => show win0_3.index t (1 : Fin 2) * 256 + 1 * h.val = h.val; omega

theorem blk4_apply (c : Dev nD) (t : Fin cfg0.N) (h : Fin 256) :
    iblk m c 4 t (ix1 h) = (m ((c : Thread nD τ).loc main_arg3)) (ix1 h) := by
  show V m c main_arg3 (((cfg0.win 4).blk t).view.emb (ix1 h)) = _
  rw [V_main_arg3]
  have e0 := idx_facts4 t
  refine congrArg _ (funext fun a => Fin.ext ?_)
  match a with
  | ⟨0, _⟩ => show win0_4.index t (0 : Fin 1) * 256 + 1 * h.val = h.val; omega

theorem blk5_apply (c : Dev nD) (t : Fin cfg0.N) (d h : Fin 256) :
    iblk m c 5 t (ix2 d h) = (m ((c : Thread nD τ).loc main_arg4)) (ix2 d h) := by
  show V m c main_arg4 (((cfg0.win 5).blk t).view.emb (ix2 d h)) = _
  rw [V_main_arg4]
  obtain ⟨e0, e1⟩ := idx_facts5 t
  refine congrArg _ (funext fun a => Fin.ext ?_)
  match a with
  | ⟨0, _⟩ => show win0_5.index t (0 : Fin 2) * 256 + 1 * d.val = d.val; omega
  | ⟨1, _⟩ => show win0_5.index t (1 : Fin 2) * 256 + 1 * h.val = h.val; omega

theorem blk6_apply (c : Dev nD) (t : Fin cfg0.N) (h : Fin 256) :
    iblk m c 6 t (ix1 h) = (m ((c : Thread nD τ).loc main_arg5)) (ix1 h) := by
  show V m c main_arg5 (((cfg0.win 6).blk t).view.emb (ix1 h)) = _
  rw [V_main_arg5]
  have e0 := idx_facts6 t
  refine congrArg _ (funext fun a => Fin.ext ?_)
  match a with
  | ⟨0, _⟩ => show win0_6.index t (0 : Fin 1) * 256 + 1 * h.val = h.val; omega

theorem blk7_apply (c : Dev nD) (t : Fin cfg0.N) (d h : Fin 256) :
    iblk m c 7 t (ix2 d h) = (m ((c : Thread nD τ).loc main_arg6)) (ix2 d h) := by
  show V m c main_arg6 (((cfg0.win 7).blk t).view.emb (ix2 d h)) = _
  rw [V_main_arg6]
  obtain ⟨e0, e1⟩ := idx_facts7 t
  refine congrArg _ (funext fun a => Fin.ext ?_)
  match a with
  | ⟨0, _⟩ => show win0_7.index t (0 : Fin 2) * 256 + 1 * d.val = d.val; omega
  | ⟨1, _⟩ => show win0_7.index t (1 : Fin 2) * 256 + 1 * h.val = h.val; omega

theorem blk8_apply (c : Dev nD) (t : Fin cfg0.N) (h : Fin 256) :
    iblk m c 8 t (ix1 h) = (m ((c : Thread nD τ).loc main_arg7)) (ix1 h) := by
  show V m c main_arg7 (((cfg0.win 8).blk t).view.emb (ix1 h)) = _
  rw [V_main_arg7]
  have e0 := idx_facts8 t
  refine congrArg _ (funext fun a => Fin.ext ?_)
  match a with
  | ⟨0, _⟩ => show win0_8.index t (0 : Fin 1) * 256 + 1 * h.val = h.val; omega

theorem blk9_apply (c : Dev nD) (t : Fin cfg0.N) (h : Fin 256) :
    iblk m c 9 t (ix1 h) = (m ((c : Thread nD τ).loc main_arg8)) (ix1 h) := by
  show V m c main_arg8 (((cfg0.win 9).blk t).view.emb (ix1 h)) = _
  rw [V_main_arg8]
  have e0 := idx_facts9 t
  refine congrArg _ (funext fun a => Fin.ext ?_)
  match a with
  | ⟨0, _⟩ => show win0_9.index t (0 : Fin 1) * 256 + 1 * h.val = h.val; omega

theorem blk10_apply (c : Dev nD) (t : Fin cfg0.N) (h : Fin 256) :
    iblk m c 10 t (ix1 h) = (m ((c : Thread nD τ).loc main_arg9)) (ix1 h) := by
  show V m c main_arg9 (((cfg0.win 10).blk t).view.emb (ix1 h)) = _
  rw [V_main_arg9]
  have e0 := idx_facts10 t
  refine congrArg _ (funext fun a => Fin.ext ?_)
  match a with
  | ⟨0, _⟩ => show win0_10.index t (0 : Fin 1) * 256 + 1 * h.val = h.val; omega

/-! ## What point `t` writes back is batch `t` of the whole result -/

theorem flushed11_eq (c : Dev nD) (t : Fin cfg0.N) :
    (dats m 0 c).flushed 11 t = ((cfg0.win 11).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed11]
  funext j
  obtain ⟨u, n, h, rfl⟩ : ∃ (u : Fin 1) (n : Fin 1024) (h : Fin 256), j = ix3 u n h :=
    ⟨j 0, j 1, j 2, eq_ix3 (n0 := 1) (n1 := 1024) (n2 := 256) j⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u n h)
      = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((cfg0.win 11).blk t).view.emb (ix3 u n h))
  obtain ⟨e0, e1, e2⟩ := idx_facts11 t
  have hi : ((cfg0.win 11).blk t).view.emb (ix3 u n h) = ix3 (batchOf t) n h := funext fun a => Fin.ext (by
    match a with
    | ⟨0, _⟩ => show win0_11.index t (0 : Fin 3) * 1 + 1 * u.val = t.val; omega
    | ⟨1, _⟩ => show win0_11.index t (1 : Fin 3) * 1024 + 1 * n.val = n.val; omega
    | ⟨2, _⟩ => show win0_11.index t (2 : Fin 3) * 256 + 1 * h.val = h.val; omega)
  rw [hi, G_apply]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (maskOf (m ((c : Thread nD τ).loc main_arg1)) (batchOf t))
    (fun n => blk1_apply m c t 0 n 0) (fun k => blk2_apply m c t 0 0 k) u n h).trans ?_
  have h0 : (fun (n : Fin 1024) (d : Fin 256) => iblk m c 0 t (ix3 (0 : Fin 1) n d)) = rowsOf (m ((c : Thread nD τ).loc main_arg0)) (batchOf t) :=
    funext fun n => funext fun d => blk0_apply m c t 0 n d
  have h3 : matOf (iblk m c 3 t) = matOf (m ((c : Thread nD τ).loc main_arg2)) := funext fun d => funext fun h => blk3_apply m c t d h
  have h4 : vecOf (iblk m c 4 t) = vecOf (m ((c : Thread nD τ).loc main_arg3)) := funext fun h => blk4_apply m c t h
  have h5 : matOf (iblk m c 5 t) = matOf (m ((c : Thread nD τ).loc main_arg4)) := funext fun d => funext fun h => blk5_apply m c t d h
  have h6 : vecOf (iblk m c 6 t) = vecOf (m ((c : Thread nD τ).loc main_arg5)) := funext fun h => blk6_apply m c t h
  have h7 : matOf (iblk m c 7 t) = matOf (m ((c : Thread nD τ).loc main_arg6)) := funext fun d => funext fun h => blk7_apply m c t d h
  have h8 : vecOf (iblk m c 8 t) = vecOf (m ((c : Thread nD τ).loc main_arg7)) := funext fun h => blk8_apply m c t h
  have h9 : vecOf (iblk m c 9 t) = vecOf (m ((c : Thread nD τ).loc main_arg8)) := funext fun h => blk9_apply m c t h
  have h10 : vecOf (iblk m c 10 t) = vecOf (m ((c : Thread nD τ).loc main_arg9)) := funext fun h => blk10_apply m c t h
  rw [h0, h3, h4, h5, h6, h7, h8, h9, h10]

/-! ## The 32 blocks cover the output array -/

theorem mem_blk11 (t : Fin cfg0.N) (i : S32x1024x256.Idx) :
    i ∈ ((cfg0.win 11).blk t).view.set ↔ ∀ a : Fin 3, win0_11.index t a * S1x1024x256.size a ≤ (i a).val ∧ (i a).val < win0_11.index t a * S1x1024x256.size a + S1x1024x256.size a := by
  show i ∈ ((View.whole main_v3).slice (win0_11.rect t)).set ↔ _
  rw [View.set_slice_whole, Rect.mem_set_unit]
  exact Iff.rfl

theorem cover11 (i : S32x1024x256.Idx) :
    ∃ t : Fin cfg0.N, (cfg0.win 11).flush t = true ∧ i ∈ ((cfg0.win 11).blk t).view.set := by
  have hi0 : (i 0).val < 32 := (i 0).isLt
  have hi1 : (i 1).val < 1024 := (i 1).isLt
  have hi2 : (i 2).val < 256 := (i 2).isLt
  have ht : (i 0).val < cfg0.N := by
    have hN : grid0.N = 32 := N_0
    show (i 0).val < grid0.N
    omega
  refine ⟨⟨(i 0).val, ht⟩, flush0_11 _, ?_⟩
  obtain ⟨e0, e1, e2⟩ := idx_facts11 ⟨(i 0).val, ht⟩
  rw [mem_blk11]
  intro a
  match a with
  | ⟨0, _⟩ =>
    show win0_11.index ⟨(i 0).val, _⟩ (0 : Fin 3) * 1 ≤ (i 0).val ∧ (i 0).val < win0_11.index ⟨(i 0).val, _⟩ (0 : Fin 3) * 1 + 1
    have e0' : win0_11.index ⟨(i 0).val, ht⟩ (0 : Fin 3) = (i 0).val := e0
    omega
  | ⟨1, _⟩ =>
    show win0_11.index ⟨(i 0).val, _⟩ (1 : Fin 3) * 1024 ≤ (i 1).val ∧ (i 1).val < win0_11.index ⟨(i 0).val, _⟩ (1 : Fin 3) * 1024 + 1024
    omega
  | ⟨2, _⟩ =>
    show win0_11.index ⟨(i 0).val, _⟩ (2 : Fin 3) * 256 ≤ (i 2).val ∧ (i 2).val < win0_11.index ⟨(i 0).val, _⟩ (2 : Fin 3) * 256 + 256
    omega

/-- The output array after the run is the whole result of the argument arrays. -/
theorem final11 (c : Dev nD) : (dats m 0 c).arrAt 11 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (dats m 0 c).arrAt_eq_of_cover 11 _ (fun t _ => flushed11_eq m c t) cover11

/-! ## The run, read -/

/-- Every weakly fair execution of the kernel's program terminates with the result array at the whole result of the
    argument arrays, and the arguments unchanged. -/
theorem run : θ_run defs (onTc (τ := τ) (main (F := Ideal))) ⟨m, fun _ => 0, ρ⟩ fun r => ∀ c : Dev nD,
      r.2.mem ((c : Thread nD τ).loc main_v3) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final11 m c), (h c).2⟩) (Cert.KernelIdeal.Value.run_blocks m ρ)

end Cert.Attn.Arr

end
-- ==== Proof.RefValue.lean ====
/-
  The reference program, stage by stage, read at an index: batch `b` of each stage is the corresponding piece of the
  mathematics of one batch (queries, keys and values by `lin`; the logits; the row maximum; the softmax; the mix; the
  normalisation). The one step that is not a rereading is the bias of the logits, where the reference computes
  `a − 100000 · (1 − a)` of the mask product `a`: the product of two integers read as reals is a real, and on the
  reals this is `a · 100001 − 100000` (`mask_bias`).
-/
import proofs.«137331_j41205916237953_1_alg».proof.Proof.Gen.ReferenceIdeal.Read
import proofs.«137331_j41205916237953_1_alg».proof.Proof.Spec
import Idealize.ShloMosaic.PureOps.Ideal.Laws
import Idealize.ShloMosaic.PureOps.Reduce

noncomputable section

namespace Cert.Attn.Ref

open Cert.ReferenceIdeal Cert.ReferenceIdeal.Facts₀ Cert.ReferenceIdeal.Read Idealize.ShloMosaic Idealize.ShloMosaic.ValueIdx Cert.Attn

/-! ## The composed index maps of the broadcasts and contractions, at an index written by coordinates -/

theorem e_l0 (b : Fin 32) (n : Fin 1024) (h k : Fin 256) : lidx_main_v0 (ix3 b n h) k = ix3 b n k :=
  funext fun a => Fin.ext (by match a with | ⟨0, _⟩ => rfl | ⟨1, _⟩ => rfl | ⟨2, _⟩ => rfl)

theorem e_r0 (b : Fin 32) (n : Fin 1024) (h k : Fin 256) : ridx_main_v0 (ix3 b n h) k = ix2 k h :=
  funext fun a => Fin.ext (by match a with | ⟨0, _⟩ => rfl | ⟨1, _⟩ => rfl)

theorem e_b0 (b : Fin 32) (n : Fin 1024) (h : Fin 256) : idx_main_v1 (idx_main_v2 (ix3 b n h)) = ix1 h :=
  funext fun a => Fin.ext (by match a with | ⟨0, _⟩ => rfl)

theorem e_l4 (b : Fin 32) (n : Fin 1024) (h k : Fin 256) : lidx_main_v4 (ix3 b n h) k = ix3 b n k :=
  funext fun a => Fin.ext (by match a with | ⟨0, _⟩ => rfl | ⟨1, _⟩ => rfl | ⟨2, _⟩ => rfl)

theorem e_r4 (b : Fin 32) (n : Fin 1024) (h k : Fin 256) : ridx_main_v4 (ix3 b n h) k = ix2 k h :=
  funext fun a => Fin.ext (by match a with | ⟨0, _⟩ => rfl | ⟨1, _⟩ => rfl)

theorem e_b4 (b : Fin 32) (n : Fin 1024) (h : Fin 256) : idx_main_v5 (idx_main_v6 (ix3 b n h)) = ix1 h :=
  funext fun a => Fin.ext (by match a with | ⟨0, _⟩ => rfl)

theorem e_l8 (b : Fin 32) (n : Fin 1024) (h k : Fin 256) : lidx_main_v8 (ix3 b n h) k = ix3 b n k :=
  funext fun a => Fin.ext (by match a with | ⟨0, _⟩ => rfl | ⟨1, _⟩ => rfl | ⟨2, _⟩ => rfl)

theorem e_r8 (b : Fin 32) (n : Fin 1024) (h k : Fin 256) : ridx_main_v8 (ix3 b n h) k = ix2 k h :=
  funext fun a => Fin.ext (by match a with | ⟨0, _⟩ => rfl | ⟨1, _⟩ => rfl)

theorem e_b8 (b : Fin 32) (n : Fin 1024) (h : Fin 256) : idx_main_v9 (idx_main_v10 (ix3 b n h)) = ix1 h :=
  funext fun a => Fin.ext (by match a with | ⟨0, _⟩ => rfl)

theorem e_l12 (b : Fin 32) (n m : Fin 1024) (k : Fin 256) : lidx_main_v12 (ix3 b n m) k = ix3 b n k :=
  funext fun a => Fin.ext (by match a with | ⟨0, _⟩ => rfl | ⟨1, _⟩ => rfl | ⟨2, _⟩ => rfl)

theorem e_r12 (b : Fin 32) (n m : Fin 1024) (k : Fin 256) : ridx_main_v12 (ix3 b n m) k = ix3 b m k :=
  funext fun a => Fin.ext (by match a with | ⟨0, _⟩ => rfl | ⟨1, _⟩ => rfl | ⟨2, _⟩ => rfl)

theorem e_mq (b : Fin 32) (n m : Fin 1024) : idx_main_v16 (idx_main_v18 (ix3 b n m)) = ix2 b n :=
  funext fun a => Fin.ext (by match a with | ⟨0, _⟩ => rfl | ⟨1, _⟩ => rfl)

theorem e_mk (b : Fin 32) (n m : Fin 1024) : idx_main_v17 (idx_main_v19 (ix3 b n m)) = ix2 b m :=
  funext fun a => Fin.ext (by match a with | ⟨0, _⟩ => rfl | ⟨1, _⟩ => rfl)

theorem e_mx (b : Fin 32) (n m : Fin 1024) : idx_main_v30 (idx_main_v31 (ix3 b n m)) = ix2 b n :=
  funext fun a => Fin.ext (by match a with | ⟨0, _⟩ => rfl | ⟨1, _⟩ => rfl)

theorem e_sm (b : Fin 32) (n m : Fin 1024) : idx_main_v35 (idx_main_v36 (ix3 b n m)) = ix2 b n :=
  funext fun a => Fin.ext (by match a with | ⟨0, _⟩ => rfl | ⟨1, _⟩ => rfl)

theorem e_s34 (b : Fin 32) (n k : Fin 1024) : idx_main_v34 (ix2 b n) k = ix3 b n k :=
  funext fun a => Fin.ext (by match a with | ⟨0, _⟩ => rfl | ⟨1, _⟩ => rfl | ⟨2, _⟩ => rfl)

theorem e_l38 (b : Fin 32) (n k : Fin 1024) (h : Fin 256) : lidx_main_v38 (ix3 b n h) k = ix3 b n k :=
  funext fun a => Fin.ext (by match a with | ⟨0, _⟩ => rfl | ⟨1, _⟩ => rfl | ⟨2, _⟩ => rfl)

theorem e_r38 (b : Fin 32) (n k : Fin 1024) (h : Fin 256) : ridx_main_v38 (ix3 b n h) k = ix3 b k h :=
  funext fun a => Fin.ext (by match a with | ⟨0, _⟩ => rfl | ⟨1, _⟩ => rfl | ⟨2, _⟩ => rfl)

theorem e_s39 (b : Fin 32) (n : Fin 1024) (k : Fin 256) : idx_main_v39 (ix2 b n) k = ix3 b n k :=
  funext fun a => Fin.ext (by match a with | ⟨0, _⟩ => rfl | ⟨1, _⟩ => rfl | ⟨2, _⟩ => rfl)

theorem e_s46 (b : Fin 32) (n : Fin 1024) (k : Fin 256) : idx_main_v46 (ix2 b n) k = ix3 b n k :=
  funext fun a => Fin.ext (by match a with | ⟨0, _⟩ => rfl | ⟨1, _⟩ => rfl | ⟨2, _⟩ => rfl)

theorem e_mu43 (b : Fin 32) (n : Fin 1024) (h : Fin 256) : idx_main_v40 (idx_main_v43 (ix3 b n h)) = ix2 b n :=
  funext fun a => Fin.ext (by match a with | ⟨0, _⟩ => rfl | ⟨1, _⟩ => rfl)

theorem e_mu50 (b : Fin 32) (n : Fin 1024) (h : Fin 256) : idx_main_v40 (idx_main_v50 (ix3 b n h)) = ix2 b n :=
  funext fun a => Fin.ext (by match a with | ⟨0, _⟩ => rfl | ⟨1, _⟩ => rfl)

theorem e_var (b : Fin 32) (n : Fin 1024) (h : Fin 256) : idx_main_v47 (idx_main_v55 (ix3 b n h)) = ix2 b n :=
  funext fun a => Fin.ext (by match a with | ⟨0, _⟩ => rfl | ⟨1, _⟩ => rfl)

theorem e_g (b : Fin 32) (n : Fin 1024) (h : Fin 256) : idx_main_v57 (idx_main_v58 (ix3 b n h)) = ix1 h :=
  funext fun a => Fin.ext (by match a with | ⟨0, _⟩ => rfl)

theorem e_be (b : Fin 32) (n : Fin 1024) (h : Fin 256) : idx_main_v60 (idx_main_v61 (ix3 b n h)) = ix1 h :=
  funext fun a => Fin.ext (by match a with | ⟨0, _⟩ => rfl)

variable (x0 : (⟨S32x1024x256, .f32⟩ : BufTy).Contents (Elt Ideal)) (x1 : (⟨S32x1024, .i32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 x8 x9 : (⟨S256, .f32⟩ : BufTy).Contents (Elt Ideal))

/-! ## Queries, keys, values -/

theorem q_apply (b : Fin 32) (n : Fin 1024) (h : Fin 256) :
    val_main_v3 (F := Ideal) x0 x2 x3 (ix3 b n h) = lin (rowsOf x0 b) (matOf x2) (vecOf x3) n h := by
  simp only [val_main_v3_apply, val_main_v0_apply, val_main_v2_apply, val_main_v1_apply, e_l0, e_r0, e_b0]
  rfl

theorem k_apply (b : Fin 32) (n : Fin 1024) (h : Fin 256) :
    val_main_v7 (F := Ideal) x0 x4 x5 (ix3 b n h) = lin (rowsOf x0 b) (matOf x4) (vecOf x5) n h := by
  simp only [val_main_v7_apply, val_main_v4_apply, val_main_v6_apply, val_main_v5_apply, e_l4, e_r4, e_b4]
  rfl

theorem v_apply (b : Fin 32) (n : Fin 1024) (h : Fin 256) :
    val_main_v11 (F := Ideal) x0 x6 x7 (ix3 b n h) = lin (rowsOf x0 b) (matOf x6) (vecOf x7) n h := by
  simp only [val_main_v11_apply, val_main_v8_apply, val_main_v10_apply, val_main_v9_apply, e_l8, e_r8, e_b8]
  rfl

/-! ## The logits -/

theorem logit_apply (b : Fin 32) (n m : Fin 1024) :
    val_main_v26 (F := Ideal) x0 x1 x2 x3 x4 x5 (ix3 b n m)
      = logit (lin (rowsOf x0 b) (matOf x2) (vecOf x3)) (lin (rowsOf x0 b) (matOf x4) (vecOf x5)) (maskOf x1 b) n m := by
  simp only [val_main_v26_apply, val_main_v14_apply, val_main_v12_apply, val_main_v13_apply, val_main_cst_apply,
    val_main_v25_apply, val_main_v24_apply, val_main_v23_apply, val_main_cst_1_apply, val_main_v22_apply,
    val_main_v21_apply, val_main_cst_0_apply, val_main_v20_apply, val_main_v18_apply, val_main_v16_apply,
    val_main_v19_apply, val_main_v17_apply, val_main_v15_apply, e_l12, e_r12, e_mq, e_mk, q_apply, k_apply]
  show (∑ k : Fin 256, lin (rowsOf x0 b) (matOf x2) (vecOf x3) n k * lin (rowsOf x0 b) (matOf x4) (vecOf x5) m k)
        * Ideal.ofBits .f32 0x3D800000#32
      + ((((x1 (ix2 b n)).toInt : ℝ) : EReal) * (((x1 (ix2 b m)).toInt : ℝ) : EReal)
          - Ideal.ofBits .f32 0x47C35000#32
            * (Ideal.ofBits .f32 0x3F800000#32 - (((x1 (ix2 b n)).toInt : ℝ) : EReal) * (((x1 (ix2 b m)).toInt : ℝ) : EReal))) = _
  rw [← EReal.coe_mul, mask_bias]
  rfl

/-! ## The row maximum, the softmax, the mix -/

/-- The host's maximum along the last axis, at a row: the fold of `max` from the initial value over the row. -/
theorem hostmax_apply (y : FVec Ideal S32x1024x1024 .f32) (init : S_.Idx → EReal) (h' : S32x1024x1024.ReducesTo [2] S32x1024)
    (hu : 0 < S_.numel) (b : Fin 32) (n : Fin 1024) :
    Host.reduce FloatOps.maximumf y init h' hu (ix2 b n)
      = (Finset.univ : Finset (Fin 1024)).fold max (init (Shape.Idx.first hu)) (fun m => y (ix3 b n m)) := by
  have hr : S32x1024x1024.Reduces [2] S32x1024 := by decide
  refine (Host.reduce_eq_fold_single FloatOps.maximumf y init h' hr hu (ix2 b n)).trans ?_
  show (Finset.univ : Finset (Fin 1024)).fold max (init (Shape.Idx.first hu)) (fun m => y (hr.lift (ix2 b n) m)) = _
  refine congrArg (fun f => Finset.fold max (init (Shape.Idx.first hu)) f Finset.univ) (funext fun m => congrArg y ?_)
  exact funext fun a => Fin.ext (by match a with | ⟨0, _⟩ => rfl | ⟨1, _⟩ => rfl | ⟨2, _⟩ => rfl)

theorem rowmax_apply (b : Fin 32) (n : Fin 1024) :
    val_main_v29 (F := Ideal) x0 x1 x2 x3 x4 x5 (ix2 b n) = rowMax (fun m => val_main_v26 (F := Ideal) x0 x1 x2 x3 x4 x5 (ix3 b n m)) := by
  rw [val_main_v29_apply, val_main_v28_apply, val_main_cst_3_apply]
  unfold val_main_v27
  generalize val_main_v26 (F := Ideal) x0 x1 x2 x3 x4 x5 = y
  show max (Ideal.ofBits .f32 0xFF800000#32)
      (Host.reduce FloatOps.maximumf y (val_main_cst_2 (F := Ideal)) reducesTo_S32x1024x1024_S32x1024_d2 h_S_ (ix2 b n)) = _
  exact congrArg (max _) (hostmax_apply y _ _ _ b n)

theorem soft_apply (b : Fin 32) (n m : Fin 1024) :
    val_main_v37 (F := Ideal) x0 x1 x2 x3 x4 x5 (ix3 b n m) = softmax (fun j => val_main_v26 (F := Ideal) x0 x1 x2 x3 x4 x5 (ix3 b n j)) m := by
  simp only [val_main_v37_apply, val_main_v36_apply, val_main_v35_apply, val_main_v34_apply, val_main_cst_4_apply,
    val_main_v33_apply, val_main_v32_apply, val_main_v31_apply, val_main_v30_apply, e_sm, e_s34, e_mx, rowmax_apply]
  show Ideal.div (Ideal.exp (_ - _)) (Ideal.ofBits .f32 0x00000000#32 + _) = _
  rw [Ideal.ofBits_zero_f32, zero_add]
  rfl

theorem mix_apply (b : Fin 32) (n : Fin 1024) (h : Fin 256) :
    val_main_v38 (F := Ideal) x0 x1 x2 x3 x4 x5 x6 x7 (ix3 b n h)
      = mix (fun m => val_main_v37 (F := Ideal) x0 x1 x2 x3 x4 x5 (ix3 b n m)) (lin (rowsOf x0 b) (matOf x6) (vecOf x7)) h := by
  simp only [val_main_v38_apply, e_l38, e_r38, v_apply]
  rfl

/-! ## The normalisation -/

theorem mean_apply (b : Fin 32) (n : Fin 1024) (u : S32x1024x1.Idx) (hu : idx_main_v40 u = ix2 b n) :
    val_main_v42 (F := Ideal) x0 x1 x2 x3 x4 x5 x6 x7 u = mean (fun j => val_main_v38 (F := Ideal) x0 x1 x2 x3 x4 x5 x6 x7 (ix3 b n j)) := by
  simp only [val_main_v42_apply, val_main_v41_apply, val_main_cst_6_apply, val_main_v40_apply, hu, val_main_v39_apply,
    val_main_cst_5_apply, e_s39]
  show Ideal.div (Ideal.ofBits .f32 0x00000000#32 + _) _ = _
  rw [Ideal.ofBits_zero_f32, zero_add]
  rfl

theorem ln_apply (b : Fin 32) (n : Fin 1024) (h : Fin 256) :
    val_main_v63 (F := Ideal) x0 x1 x2 x3 x4 x5 x6 x7 x8 x9 (ix3 b n h)
      = lnRelu (fun j => val_main_v38 (F := Ideal) x0 x1 x2 x3 x4 x5 x6 x7 (ix3 b n j)) (vecOf x8) (vecOf x9) h := by
  simp only [val_main_v63_apply, val_main_call0_v0_apply, val_main_call0_cst_apply, val_main_v62_apply, val_main_v61_apply,
    val_main_v60_apply, val_main_v59_apply, val_main_v58_apply, val_main_v57_apply, val_main_v56_apply, val_main_v55_apply,
    val_main_v54_apply, val_main_v53_apply, val_main_v52_apply, val_main_cst_9_apply, val_main_v51_apply, val_main_v50_apply,
    val_main_v49_apply, val_main_v48_apply, val_main_cst_8_apply, val_main_v47_apply, val_main_v46_apply, val_main_cst_7_apply,
    val_main_v45_apply, val_main_v44_apply, val_main_v43_apply, e_var, e_s46, e_g, e_be,
    mean_apply x0 x1 x2 x3 x4 x5 x6 x7 b n _ (e_mu43 b n _), mean_apply x0 x1 x2 x3 x4 x5 x6 x7 b n _ (e_mu50 b n _)]
  show max (_ * Ideal.rsqrt (Ideal.div (Ideal.ofBits .f32 0x00000000#32 + _) _ + _) * _ + _) _ = _
  rw [Ideal.ofBits_zero_f32, zero_add]
  rfl

/-! ## The reference's result is the whole result -/

theorem result_eq :
    val_main_v63 (F := Ideal) x0 x1 x2 x3 x4 x5 x6 x7 x8 x9 = G x0 x1 x2 x3 x4 x5 x6 x7 x8 x9 := by
  funext i
  obtain ⟨b, n, h, rfl⟩ : ∃ (b : Fin 32) (n : Fin 1024) (h : Fin 256), i = ix3 b n h := ⟨i 0, i 1, i 2, eq_ix3 i⟩
  rw [G_apply, ln_apply]
  unfold attn
  refine congrArg (fun o => lnRelu o (vecOf x8) (vecOf x9) h) (funext fun j => ?_)
  rw [mix_apply]
  refine congrArg (fun p => mix p (lin (rowsOf x0 b) (matOf x6) (vecOf x7)) j) (funext fun m => ?_)
  rw [soft_apply]
  exact congrArg (fun t => softmax t m) (funext fun j' => logit_apply x0 x1 x2 x3 x4 x5 b n j')

end Cert.Attn.Ref

end
-- ==== Proof.lean ====
/-
  The certificate of an attention layer with layer normalisation, computed one batch per grid point, against its
  batched reference, over the extended reals.

  Both programs compute, for each of 32 batches, the same function of the batch's features and mask (Proof/Spec.lean):
  queries, keys and values by three linear maps; logits as scaled inner products plus a bias that is `1` where both
  mask values are one and `−100000` where either is zero; a softmax along each row; the mix of the value rows; and a
  layer normalisation with scale, shift and a clip at zero. The kernel forms the bias as `a · 100001 − 100000` of the
  mask product `a` and the reference as `a − 100000 · (1 − a)`: equal on the reals, and the mask product is a real
  because a mask value is an integer. That is the only law used; every other step is the same operation on both sides,
  the kernel's on one batch at a time (Proof/KernelValue.lean, Proof/KernelArray.lean) and the reference's on all
  batches at once (Proof/RefValue.lean). The precondition is not used by the equation: no step divides by, cancels or
  distributes over a float input.
-/
import proofs.«137331_j41205916237953_1_alg».proof.Defs
import proofs.«137331_j41205916237953_1_alg».proof.Proof.Gen.Kernel
import proofs.«137331_j41205916237953_1_alg».proof.Proof.Gen.Kernel.Skeleton
import proofs.«137331_j41205916237953_1_alg».proof.Proof.Gen.Kernel.Launch
import proofs.«137331_j41205916237953_1_alg».proof.Proof.Gen.Kernel.Points
import proofs.«137331_j41205916237953_1_alg».proof.Proof.Gen.Kernel.Frame
import proofs.«137331_j41205916237953_1_alg».proof.Proof.Gen.KernelIdeal
import proofs.«137331_j41205916237953_1_alg».proof.Proof.Gen.KernelIdeal.Skeleton
import proofs.«137331_j41205916237953_1_alg».proof.Proof.Gen.KernelIdeal.Launch
import proofs.«137331_j41205916237953_1_alg».proof.Proof.Gen.KernelIdeal.Points
import proofs.«137331_j41205916237953_1_alg».proof.Proof.Gen.KernelIdeal.Frame
import proofs.«137331_j41205916237953_1_alg».proof.Proof.Gen.ReferenceIdeal
import proofs.«137331_j41205916237953_1_alg».proof.Proof.Gen.KernelIdeal.Value
import proofs.«137331_j41205916237953_1_alg».proof.Proof.Gen.ReferenceIdeal.Run
import proofs.«137331_j41205916237953_1_alg».proof.Proof.Gen.ReferenceIdeal.Read
import proofs.«137331_j41205916237953_1_alg».proof.Proof.Gen.Pre_finite_inputs
import proofs.«137331_j41205916237953_1_alg».proof.Proof.KernelArray
import proofs.«137331_j41205916237953_1_alg».proof.Proof.RefValue
import Idealize.ShloMosaic.Adequacy
import Idealize.ShloMosaic.Init

noncomputable section

namespace Cert.Proof

open Idealize.ShloMosaic Idealize.SL.Sem

/-- The kernel as printed terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the whole result `G` of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.Attn.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.Attn.Ref.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
